-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 93
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S128x128, .bf16⟩
  | .hbm, ⟨45, _⟩ => ⟨S128x128, .f32⟩
  | .hbm, ⟨46, _⟩ => ⟨S128x128, .bf16⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S128x128, .f32⟩
  | .hbm, ⟨66, _⟩ => ⟨S128x128, .bf16⟩
  | .hbm, ⟨67, _⟩ => ⟨S128x128, .f32⟩
  | .hbm, ⟨68, _⟩ => ⟨S128x128, .bf16⟩
  | .hbm, ⟨69, _⟩ => ⟨S1x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S128x128, .f32⟩
  | .hbm, ⟨88, _⟩ => ⟨S128x128, .bf16⟩
  | .hbm, ⟨89, _⟩ => ⟨S128x128, .f32⟩
  | .hbm, ⟨90, _⟩ => ⟨S128x128, .bf16⟩
  | .hbm, ⟨91, _⟩ => ⟨S1x128, .f32⟩
  | .hbm, ⟨92, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000, .f32⟩
  | .hbm, ⟨102, _⟩ => ⟨S_, .f32⟩
  | .hbm, ⟨103, _⟩ => ⟨S100000, .f32⟩
  | .hbm, ⟨104, _⟩ => ⟨S1600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S128x128, .f32⟩
  | .hbm, ⟨118, _⟩ => ⟨S100000x128, .f32⟩
  | .hbm, ⟨119, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result kept.

  The program is three launches among stretches of host operations. Its run ends with every buffer that lives for the
  whole program at the contents the last boundary assigns it: the fold of the host stretches and of each launch's
  write-backs from the launch memory. The frame claim reads only the argument buffers out of that final state; here
  the result buffer is read out of it as well, so that the value of the result is available as that fold's value.
-/
import proofs.«146861_j2233382994520_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument buffers as launched. -/
theorem run_result : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LibSageLin.lean ====
/-
  One layer of a mean-aggregating graph convolution after the mean has been taken, as one whole-array function over
  the extended reals:

    lin a h wl wr b (r, j) = (∑ k, a (r, k) · wl (k, j)  +  ∑ k, h (r, k) · wr (k, j)) + b (0, j)

  where a holds the averaged neighbour rows, h the node's own rows, wl and wr the two weight matrices (already
  transposed to [K, N]) and b the bias as a [1, N] row; `relu` is the positive part, entry by entry.

  * `lin_tile`: what a tile of rows computes on the vector unit (the roundings to bf16 on the way in are the identity
    on extended reals; both products go into zero accumulators) is `lin` of the tile's rows.
  * `lin_host`: the host's spelling — two `dot_general`s and the bias broadcast twice, summed as (A + b) + B — is
    `lin` of the whole arrays; the only algebra is that addition of extended reals is commutative and associative.
  * `lin_congr`: row r of `lin` depends on row r of a and h only, so a tile of `lin` of the whole arrays is `lin` of
    the tiles.
  * `mul_recip_eq_div`: multiplying the summed rows by the reciprocal 1 / max(count, 1), spread over the columns,
    is dividing them by max(count, 1) spread the same way: for d ≠ 0 the quotient x / d is x · d⁻¹ and 1 / d is d⁻¹,
    on every extended real x; and max(count, 1) ≥ 1 is never 0. No finiteness is used.
-/
import Idealize.ShloMosaic.Lib.ValueIdx
import Idealize.ShloMosaic.Lib.Pipeline.Value
import Idealize.ShloMosaic.Lib.ValueLayout
import Idealize.ShloMosaic.PureOps.Ideal.Laws
import proofs.«146861_j2233382994520_1_alg».proof.Proof.LibDense

noncomputable section

namespace Cert.SageLin

open Idealize.ShloMosaic Idealize.ShloMosaic.ValueIdx

/-- The f32 words of one and of zero, as extended reals. -/
abbrev one : EReal := Ideal.ofBits .f32 0x3F800000#32
abbrev zero : EReal := Ideal.ofBits .f32 0x00000000#32

/-- The word 0x3F800000 is the real number one. -/
theorem one_eq : one = (1 : EReal) := by
  simp [one, Ideal.ofBits, Ideal.ieee]
  norm_cast
  norm_num

/-- Averaged neighbour rows times one weight matrix, plus the node's own rows times the other, plus the bias. -/
def lin {M K N : Nat} (a h : (⟨2, ![M, K]⟩ : Shape).Idx → EReal)
    (wl wr : (⟨2, ![K, N]⟩ : Shape).Idx → EReal) (b : (⟨2, ![1, N]⟩ : Shape).Idx → EReal) :
    (⟨2, ![M, N]⟩ : Shape).Idx → EReal :=
  fun i => ((∑ k : Fin K, a (ix2 (n0 := M) (i 0) k) * wl (ix2 (n1 := N) k (i 1)))
      + (∑ k : Fin K, h (ix2 (n0 := M) (i 0) k) * wr (ix2 (n1 := N) k (i 1))))
    + b (ix2 (0 : Fin 1) (n1 := N) (i 1))

/-- The positive part, entry by entry. -/
def relu {M N : Nat} (v : (⟨2, ![M, N]⟩ : Shape).Idx → EReal) : (⟨2, ![M, N]⟩ : Shape).Idx → EReal :=
  fun i => max (v i) zero

theorem lin_ix2 {M K N : Nat} (a h : (⟨2, ![M, K]⟩ : Shape).Idx → EReal)
    (wl wr : (⟨2, ![K, N]⟩ : Shape).Idx → EReal) (b : (⟨2, ![1, N]⟩ : Shape).Idx → EReal) (r : Fin M) (j : Fin N) :
    lin a h wl wr b (ix2 r j)
      = ((∑ k : Fin K, a (ix2 r k) * wl (ix2 k j)) + (∑ k : Fin K, h (ix2 r k) * wr (ix2 k j))) + b (ix2 (0 : Fin 1) j) := rfl

theorem relu_ix2 {M N : Nat} (v : (⟨2, ![M, N]⟩ : Shape).Idx → EReal) (r : Fin M) (j : Fin N) :
    relu v (ix2 r j) = max (v (ix2 r j)) zero := rfl

/-- Row r of the layer reads row r of the averaged rows and of the own rows, and nothing else of them. -/
theorem lin_congr {M n K N : Nat} (a h : (⟨2, ![M, K]⟩ : Shape).Idx → EReal)
    (a' h' : (⟨2, ![n, K]⟩ : Shape).Idx → EReal)
    (wl wr wl' wr' : (⟨2, ![K, N]⟩ : Shape).Idx → EReal) (b b' : (⟨2, ![1, N]⟩ : Shape).Idx → EReal)
    (p : Fin n) (r : Fin M) (j : Fin N)
    (ha : ∀ k : Fin K, a' (ix2 p k) = a (ix2 r k)) (hh : ∀ k : Fin K, h' (ix2 p k) = h (ix2 r k))
    (hwl : wl' = wl) (hwr : wr' = wr) (hb : b' = b) :
    lin a' h' wl' wr' b' (ix2 p j) = lin a h wl wr b (ix2 r j) := by
  subst hwl hwr hb
  rw [lin_ix2, lin_ix2]
  refine congrArg₂ (· + ·) (congrArg₂ (· + ·) (Finset.sum_congr rfl fun k _ => ?_) (Finset.sum_congr rfl fun k _ => ?_)) rfl
  · rw [ha k]
  · rw [hh k]

/-! ## A tile of rows on the vector unit -/

/-- The tile body: the averaged rows and the own rows, each rounded to bf16 (the identity here) and multiplied with
    its weights into a zero accumulator; the two products summed and the bias row spread down the tile added. -/
theorem lin_tile {n K N : Nat}
    (wf : DotDims.WF (⟨2, ![n, K]⟩ : Shape) ⟨2, ![K, N]⟩ ⟨2, ![n, N]⟩ [1] [0] [0] [1] [] [])
    (a h : FVec Ideal (⟨2, ![n, K]⟩ : Shape) .f32) (wl wr : FVec Ideal (⟨2, ![K, N]⟩ : Shape) .bf16)
    (b : FVec Ideal (⟨2, ![1, N]⟩ : Shape) .f32) (hlt : FTy.bits .bf16 < FTy.bits .f32)
    (hbr : (⟨2, ![1, N]⟩ : Shape).Broadcasts ⟨2, ![n, N]⟩) :
    addf (addf
        (matmul (LibDense.plainOf wf) none (truncf .bf16 a hlt) wl (constant (⟨2, ![n, N]⟩ : Shape) .f32 0x00000000#32))
        (matmul (LibDense.plainOf wf) none (truncf .bf16 h hlt) wr (constant (⟨2, ![n, N]⟩ : Shape) .f32 0x00000000#32)))
      (broadcastTo (⟨2, ![n, N]⟩ : Shape) b hbr)
      = lin a h wl wr b := by
  funext i
  obtain ⟨r, j, rfl⟩ : ∃ (r : Fin n) (j : Fin N), i = ix2 r j := ⟨i 0, i 1, eq_ix2 i⟩
  rw [lin_ix2]
  refine congrArg₂ (· + ·) (congrArg₂ (· + ·) ?_ ?_) (broadcastTo_1b_ab_apply b hbr r j)
  · exact (LibDense.matmul_zero_plain wf none _ _ r j).trans (Finset.sum_congr rfl fun k _ => rfl)
  · exact (LibDense.matmul_zero_plain wf none _ _ r j).trans (Finset.sum_congr rfl fun k _ => rfl)

/-- The positive part on the vector unit: the maximum with a zero vector. -/
theorem relu_tile {n N : Nat} (v : FVec Ideal (⟨2, ![n, N]⟩ : Shape) .f32) :
    maximumf v (broadcast (⟨2, ![n, N]⟩ : Shape) (Scalar.ofBits (F := Ideal) .f32 0x00000000#32)) = relu v := rfl

/-! ## The host's spelling -/

/-- The bias laid out as a row and spread down the rows, read at (r, j). -/
theorem bias_host {M N : Nat} (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    broadcastInDim (⟨2, ![M, N]⟩ : Shape) ![0, 1] h2 (broadcastInDim (⟨2, ![1, N]⟩ : Shape) ![1] h1 b) (ix2 r j) = b (ix1 j) := by
  refine (broadcastInDim_apply ![0, 1] h2 _ (ix2 r j) (ix2 (0 : Fin 1) j) fun a => ?_).trans
    (broadcastInDim_apply ![1] h1 b (ix2 (0 : Fin 1) j) (ix1 j) fun a => ?_)
  · match a with
    | ⟨0, _⟩ => rfl
    | ⟨1, _⟩ =>
      show j.val = if N = 1 then 0 else j.val
      split
      · have := j.isLt; omega
      · rfl
  · match a with
    | ⟨0, _⟩ =>
      show j.val = if N = 1 then 0 else j.val
      split
      · have := j.isLt; omega
      · rfl

/-- A length-M array laid out as an [M, 1] column and spread across N columns, read at (r, j): the array at r. -/
theorem col_host {M N : Nat} (v : FVec Ideal (⟨1, ![M]⟩ : Shape) .f32)
    (h1 : (⟨1, ![M]⟩ : Shape).BroadcastsInDim ⟨2, ![M, 1]⟩ ![0])
    (h2 : (⟨2, ![M, 1]⟩ : Shape).BroadcastsInDim ⟨2, ![M, N]⟩ ![0, 1]) (r : Fin M) (j : Fin N) :
    broadcastInDim (⟨2, ![M, N]⟩ : Shape) ![0, 1] h2 (broadcastInDim (⟨2, ![M, 1]⟩ : Shape) ![0] h1 v) (ix2 r j) = v (ix1 r) := by
  refine (broadcastInDim_apply ![0, 1] h2 _ (ix2 r j) (ix2 r (0 : Fin 1)) fun a => ?_).trans
    (broadcastInDim_apply ![0] h1 v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's layer, summed as (A + bias) + B, is the layer summed as (A + B) + bias. -/
theorem lin_host {M K N : Nat}
    (wf : DotDims.WF (⟨2, ![M, K]⟩ : Shape) ⟨2, ![K, N]⟩ ⟨2, ![M, N]⟩ [1] [0] [0] [1] [] [])
    (a h : FVec Ideal (⟨2, ![M, K]⟩ : Shape) .f32)
    (wl wr : FVec Ideal (⟨2, ![K, N]⟩ : Shape) .f32) (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hsc : (⟨1, ![N]⟩ : Shape).ShapeCasts ⟨2, ![1, N]⟩) :
    addf (addf (Host.dotGeneral (LibDense.plainOf wf) none a wl)
        (broadcastInDim (⟨2, ![M, N]⟩ : Shape) ![0, 1] h2 (broadcastInDim (⟨2, ![1, N]⟩ : Shape) ![1] h1 b)))
      (Host.dotGeneral (LibDense.plainOf wf) none h wr)
      = lin a h wl wr (shapeCast (⟨2, ![1, N]⟩ : Shape) b hsc) := by
  funext i
  obtain ⟨r, j, rfl⟩ : ∃ (r : Fin M) (j : Fin N), i = ix2 r j := ⟨i 0, i 1, eq_ix2 i⟩
  rw [lin_ix2, shapeCast_a_1a_apply, add_right_comm]
  exact congrArg₂ (· + ·) (congrArg₂ (· + ·) (LibDense.dotGeneral_plain wf none .single a wl r j) (bias_host b h1 h2 r j))
    (LibDense.dotGeneral_plain wf none .single h wr r j)

/-- The host's positive part: the maximum with a zero array. -/
theorem relu_host {M N : Nat} (v : FVec Ideal (⟨2, ![M, N]⟩ : Shape) .f32)
    (hz : (⟨0, ![]⟩ : Shape).BroadcastsInDim ⟨2, ![M, N]⟩ ![]) :
    maximumf v (broadcastInDim (⟨2, ![M, N]⟩ : Shape) ![] hz (constant (F := Ideal) (⟨0, ![]⟩ : Shape) .f32 0x00000000#32))
      = relu v := rfl

/-! ## The mean: a product with the reciprocal is the quotient -/

/-- For a divisor that is not zero, x · (1 / d) = x / d on every extended real x. -/
theorem mul_div_one {x d : EReal} (hd : d ≠ 0) : x * Ideal.div one d = Ideal.div x d := by
  rw [one_eq, Ideal.div, Ideal.div, if_neg hd, if_neg hd, one_mul]

/-- A count clamped below by one is not zero. -/
theorem clamp_ne_zero (c : EReal) : max c one ≠ 0 := by
  rw [one_eq]
  exact ne_of_gt (lt_of_lt_of_le zero_lt_one (le_max_right c 1))

/-- The summed rows times the reciprocal of the clamped count, spread over the columns, are the summed rows over the
    clamped count spread the same way. -/
theorem mul_recip_eq_div {M N : Nat} (s : FVec Ideal (⟨2, ![M, N]⟩ : Shape) .f32) (cnt : FVec Ideal (⟨1, ![M]⟩ : Shape) .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) :
    mulf s (broadcastInDim (⟨2, ![M, N]⟩ : Shape) ![0, 1] h2 (broadcastInDim (⟨2, ![M, 1]⟩ : Shape) ![0] h1
        (Host.divf (broadcastInDim (⟨1, ![M]⟩ : Shape) ![] h0 (constant (F := Ideal) (⟨0, ![]⟩ : Shape) .f32 0x3F800000#32))
          (maximumf cnt (broadcastInDim (⟨1, ![M]⟩ : Shape) ![] h0 (constant (F := Ideal) (⟨0, ![]⟩ : Shape) .f32 0x3F800000#32))))))
      = Host.divf s (broadcastInDim (⟨2, ![M, N]⟩ : Shape) ![0, 1] h2 (broadcastInDim (⟨2, ![M, 1]⟩ : Shape) ![0] h1
        (maximumf cnt (broadcastInDim (⟨1, ![M]⟩ : Shape) ![] h0 (constant (F := Ideal) (⟨0, ![]⟩ : Shape) .f32 0x3F800000#32))))) := by
  funext i
  obtain ⟨r, j, rfl⟩ : ∃ (r : Fin M) (j : Fin N), i = ix2 r j := ⟨i 0, i 1, eq_ix2 i⟩
  have hl := col_host (N := N) (Host.divf (broadcastInDim (⟨1, ![M]⟩ : Shape) ![] h0 (constant (F := Ideal) (⟨0, ![]⟩ : Shape) .f32 0x3F800000#32))
      (maximumf cnt (broadcastInDim (⟨1, ![M]⟩ : Shape) ![] h0 (constant (F := Ideal) (⟨0, ![]⟩ : Shape) .f32 0x3F800000#32)))) h1 h2 r j
  have hr := col_host (N := N) (maximumf cnt (broadcastInDim (⟨1, ![M]⟩ : Shape) ![] h0 (constant (F := Ideal) (⟨0, ![]⟩ : Shape) .f32 0x3F800000#32))) h1 h2 r j
  show s (ix2 r j) * _ = Ideal.div (s (ix2 r j)) _
  rw [hl, hr]
  exact mul_div_one (clamp_ne_zero (cnt (ix1 r)))

end Cert.SageLin

end
-- ==== Proof.HostFns.lean ====
/-
  The host's part of a layer, as functions of the edge array and of a node-feature array, and the whole network as one
  function of the program's arguments.

    * the source and destination node of every edge are the two rows of the edge array;
    * the in-degree of a node is the number of edges that end in it (ones summed at the destinations into zeros);
      `invOf` is one over the in-degree clamped below by one, `clampOf` the clamped in-degree spread over the columns;
    * a negative source index is wrapped round by the number of nodes before the rows are gathered;
    * `aggOf`: the rows of `h` at the sources, summed at the destinations into zeros; `meanOf`: those times `inv`
      spread over the columns;
    * each weight matrix is transposed (and rounded to bf16: the identity on extended reals), the bias laid out as a row.

  `mean_eq`: multiplying the summed rows by one over the clamped in-degree is dividing them by the clamped in-degree
  (the clamped in-degree is at least one, so never zero; no finiteness is needed).

  `kLayer` is one layer on the node features `h`; `kernelOut` is the three layers, the first two followed by the positive part.
-/
import proofs.«146861_j2233382994520_1_alg».proof.KernelIdeal
import proofs.«146861_j2233382994520_1_alg».proof.Proof.Gen.KernelIdeal
import proofs.«146861_j2233382994520_1_alg».proof.Proof.LibSageLin
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Cert.SageLin

/-! ## The host's functions -/

/-- Row 0 of the edge array: every edge's source node. -/
def srcOf (E : IVec S2x1600000 32) : IVec S1600000 32 :=
  shapeCast S1600000 (extractStridedSlice S1x1600000 ![0, 0] E slices_S2x1600000_S1x1600000_0_0) shapeCasts_S1x1600000_S1600000

/-- Row 1 of the edge array: every edge's destination node. -/
def dstOf (E : IVec S2x1600000 32) : IVec S1600000 32 :=
  shapeCast S1600000 (extractStridedSlice S1x1600000 ![1, 0] E slices_S2x1600000_S1x1600000_1_0) shapeCasts_S1x1600000_S1600000

/-- The in-degree: ones summed at the destinations into zeros. -/
def cntOf (dst : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- One over the in-degree clamped below by one. -/
def invOf (dst : IVec S1600000 32) : FVec Ideal S100000 .f32 :=
  Host.divf (F := Ideal) (broadcastInDim S100000 ![] bcast_S_S100000 (constant (F := Ideal) S_ .f32 0x3F800000#32))
    (maximumf (F := Ideal) (cntOf dst) (broadcastInDim S100000 ![] bcast_S_S100000 (constant (F := Ideal) S_ .f32 0x3F800000#32)))

/-- A negative source index wrapped round by the number of nodes. -/
def wrapOf (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The rows of `h` at the sources, summed at the destinations into zeros. -/
def aggOf (src dst : IVec S1600000 32) (h : FVec Ideal S100000x128 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0 (wrapOf src)))

/-- The averaged neighbour rows: the summed rows times `inv` spread over the columns. -/
def meanOf (src dst : IVec S1600000 32) (inv : FVec Ideal S100000 .f32)
    (h : FVec Ideal S100000x128 .f32) : FVec Ideal S100000x128 .f32 :=
  mulf (F := Ideal) (aggOf src dst h)
    (broadcastInDim S100000x128 ![0, 1] bcast_S100000x1_S100000x128_0_1 (broadcastInDim S100000x1 ![0] bcast_S100000_S100000x1_0 inv))

/-- A weight matrix transposed (and rounded to bf16). -/
def wtOf (W : FVec Ideal S128x128 .f32) : FVec Ideal S128x128 .bf16 :=
  truncf (F := Ideal) .bf16 (transpose S128x128 [1, 0] W transposes_S128x128_S128x128_1_0) bitsLt_bf16_f32

/-- The bias laid out as a [1,128] row. -/
def rowOf (b : FVec Ideal S128 .f32) : FVec Ideal S1x128 .f32 :=
  shapeCast S1x128 b shapeCasts_S128_S1x128

/-- The in-degree clamped below by one, spread over the columns. -/
def clampOf (dst : IVec S1600000 32) : FVec Ideal S100000x128 .f32 :=
  broadcastInDim S100000x128 ![0, 1] bcast_S100000x1_S100000x128_0_1 (broadcastInDim S100000x1 ![0] bcast_S100000_S100000x1_0
    (maximumf (F := Ideal) (cntOf dst) (broadcastInDim S100000 ![] bcast_S_S100000 (constant (F := Ideal) S_ .f32 0x3F800000#32))))

/-- The averaged rows: a product with the reciprocal of the clamped in-degree is the quotient by it. -/
theorem mean_eq (src dst : IVec S1600000 32) (h : FVec Ideal S100000x128 .f32) :
    meanOf src dst (invOf dst) h = Host.divf (F := Ideal) (aggOf src dst h) (clampOf dst) := by
  unfold meanOf invOf clampOf
  exact mul_recip_eq_div (M := 100000) (N := 128) (aggOf src dst h) (cntOf dst) bcast_S_S100000 bcast_S100000_S100000x1_0
    bcast_S100000x1_S100000x128_0_1

/-- One layer on the node features `h`: the averaged neighbour rows and the own rows through their weights, plus the bias. -/
def kLayer (E : IVec S2x1600000 32) (h : S100000x128.Idx → EReal)
    (Wl : FVec Ideal S128x128 .f32) (b : FVec Ideal S128 .f32)
    (Wr : FVec Ideal S128x128 .f32) : S100000x128.Idx → EReal :=
  lin (M := 100000) (K := 128) (N := 128) (meanOf (srcOf E) (dstOf E) (invOf (dstOf E)) h) h (wtOf Wl) (wtOf Wr) (rowOf b)

/-- The three layers: positive part after the first two. -/
def kernelOut (x : S100000x128.Idx → EReal) (E : IVec S2x1600000 32)
    (Wl0 : FVec Ideal S128x128 .f32) (b0 : FVec Ideal S128 .f32)
    (Wr0 : FVec Ideal S128x128 .f32)
    (Wl1 : FVec Ideal S128x128 .f32) (b1 : FVec Ideal S128 .f32)
    (Wr1 : FVec Ideal S128x128 .f32)
    (Wl2 : FVec Ideal S128x128 .f32) (b2 : FVec Ideal S128 .f32)
    (Wr2 : FVec Ideal S128x128 .f32) : S100000x128.Idx → EReal :=
  kLayer E (relu (M := 100000) (N := 128) (kLayer E (relu (M := 100000) (N := 128) (kLayer E x Wl0 b0 Wr0)) Wl1 b1 Wr1)) Wl2 b2 Wr2

end Cert.KernelIdeal.Hand

end
-- ==== Proof.KernelHost.lean ====
/-
  The host stretches between the launches, read back as values.

  Before each launch the host prepares that launch's operands from the edge list and the layer's parameters:
    * the source and destination node of every edge are the two rows of the edge array;
    * the in-degree of a node is the number of edges that end in it (ones summed at the destinations into zeros),
      and `inv` is one over the in-degree clamped below by one;
    * a negative source index is wrapped round by the number of nodes before the rows are gathered;
    * the averaged neighbour rows of an array `h` are the rows of `h` at the sources, summed at the destinations into
      zeros, times `inv` spread over the columns;
    * each weight matrix is transposed (and rounded to bf16: the identity on extended reals), and the bias laid out as a
      [1,128] row.
  The first stretch computes the edge rows and `inv` once; the later stretches read them where the first left them,
  and read the previous launch's output array for `h`. Each buffer's contents at a launch's entry are stated here as these
  functions of the buffers' contents at the previous boundary.
-/
import proofs.«146861_j2233382994520_1_alg».proof.Proof.Gen.KernelIdeal.Frame
import Idealize.ShloMosaic.Lib.StableHlo.Run
import proofs.«146861_j2233382994520_1_alg».proof.Proof.HostFns
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first launch -/

theorem e1_a (c : Dev nD) : V1 m ρ c main_v24 = meanOf (srcOf (m ((c : Thread nD τ).loc main_arg1))) (dstOf (m ((c : Thread nD τ).loc main_arg1)))
    (invOf (dstOf (m ((c : Thread nD τ).loc main_arg1)))) (m ((c : Thread nD τ).loc main_arg0)) := by
  show StableHlo.after hostOps0 (W0 m ρ c) (Proc.devRef .tc main_v24) = _
  dsimp only [hostOps0]
  after_results_simp
  rfl

theorem e1_h (c : Dev nD) : V1 m ρ c main_arg0 = m ((c : Thread nD τ).loc main_arg0) := by
  show StableHlo.after hostOps0 (W0 m ρ c) (Proc.devRef .tc main_arg0) = _
  dsimp only [hostOps0]
  after_results_simp

theorem e1_wl (c : Dev nD) : V1 m ρ c main_v26 = wtOf (m ((c : Thread nD τ).loc main_arg2)) := by
  show StableHlo.after hostOps0 (W0 m ρ c) (Proc.devRef .tc main_v26) = _
  dsimp only [hostOps0]
  after_results_simp
  rfl

theorem e1_wr (c : Dev nD) : V1 m ρ c main_v28 = wtOf (m ((c : Thread nD τ).loc main_arg4)) := by
  show StableHlo.after hostOps0 (W0 m ρ c) (Proc.devRef .tc main_v28) = _
  dsimp only [hostOps0]
  after_results_simp
  rfl

theorem e1_b (c : Dev nD) : V1 m ρ c main_v29 = rowOf (m ((c : Thread nD τ).loc main_arg3)) := by
  show StableHlo.after hostOps0 (W0 m ρ c) (Proc.devRef .tc main_v29) = _
  dsimp only [hostOps0]
  after_results_simp
  rfl

theorem e1_src (c : Dev nD) : W1 m ρ c (Proc.devRef .tc main_v1) = srcOf (m ((c : Thread nD τ).loc main_arg1)) := by
  show StableHlo.after hostOps0 (W0 m ρ c) (Proc.devRef .tc main_v1) = _
  dsimp only [hostOps0]
  after_results_simp
  rfl

theorem e1_dst (c : Dev nD) : W1 m ρ c (Proc.devRef .tc main_v3) = dstOf (m ((c : Thread nD τ).loc main_arg1)) := by
  show StableHlo.after hostOps0 (W0 m ρ c) (Proc.devRef .tc main_v3) = _
  dsimp only [hostOps0]
  after_results_simp
  rfl

theorem e1_inv (c : Dev nD) : W1 m ρ c (Proc.devRef .tc main_v11) = invOf (dstOf (m ((c : Thread nD τ).loc main_arg1))) := by
  show StableHlo.after hostOps0 (W0 m ρ c) (Proc.devRef .tc main_v11) = _
  dsimp only [hostOps0]
  after_results_simp
  rfl

theorem e1_keep_main_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp

theorem e1_keep_main_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp

theorem e1_keep_main_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp

theorem e1_keep_main_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results_simp

theorem e1_keep_main_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results_simp

theorem e1_keep_main_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results_simp

/-! ## Across the first launch: a buffer that is none of its arrays keeps its contents -/

theorem x2_main_v1 (c : Dev nD) : W2 m ρ c (Proc.devRef .tc main_v1) = W1 m ρ c (Proc.devRef .tc main_v1) :=
  W2_of_ne m ρ c main_v1 (by decide)

theorem x2_main_v3 (c : Dev nD) : W2 m ρ c (Proc.devRef .tc main_v3) = W1 m ρ c (Proc.devRef .tc main_v3) :=
  W2_of_ne m ρ c main_v3 (by decide)

theorem x2_main_v11 (c : Dev nD) : W2 m ρ c (Proc.devRef .tc main_v11) = W1 m ρ c (Proc.devRef .tc main_v11) :=
  W2_of_ne m ρ c main_v11 (by decide)

theorem x2_main_arg5 (c : Dev nD) : W2 m ρ c (Proc.devRef .tc main_arg5) = W1 m ρ c (Proc.devRef .tc main_arg5) :=
  W2_of_ne m ρ c main_arg5 (by decide)

theorem x2_main_arg6 (c : Dev nD) : W2 m ρ c (Proc.devRef .tc main_arg6) = W1 m ρ c (Proc.devRef .tc main_arg6) :=
  W2_of_ne m ρ c main_arg6 (by decide)

theorem x2_main_arg7 (c : Dev nD) : W2 m ρ c (Proc.devRef .tc main_arg7) = W1 m ρ c (Proc.devRef .tc main_arg7) :=
  W2_of_ne m ρ c main_arg7 (by decide)

theorem x2_main_arg8 (c : Dev nD) : W2 m ρ c (Proc.devRef .tc main_arg8) = W1 m ρ c (Proc.devRef .tc main_arg8) :=
  W2_of_ne m ρ c main_arg8 (by decide)

theorem x2_main_arg9 (c : Dev nD) : W2 m ρ c (Proc.devRef .tc main_arg9) = W1 m ρ c (Proc.devRef .tc main_arg9) :=
  W2_of_ne m ρ c main_arg9 (by decide)

theorem x2_main_arg10 (c : Dev nD) : W2 m ρ c (Proc.devRef .tc main_arg10) = W1 m ρ c (Proc.devRef .tc main_arg10) :=
  W2_of_ne m ρ c main_arg10 (by decide)

/-! ## Before the second launch -/

theorem e3_a (c : Dev nD) : V3 m ρ c main_v43 = meanOf (W2 m ρ c (Proc.devRef .tc main_v1)) (W2 m ρ c (Proc.devRef .tc main_v3))
    (W2 m ρ c (Proc.devRef .tc main_v11)) (W2 m ρ c (Proc.devRef .tc main_v30)) := by
  show StableHlo.after hostOps1 (W2 m ρ c) (Proc.devRef .tc main_v43) = _
  dsimp only [hostOps1]
  after_results_simp
  rfl

theorem e3_h (c : Dev nD) : V3 m ρ c main_v30 = W2 m ρ c (Proc.devRef .tc main_v30) := by
  show StableHlo.after hostOps1 (W2 m ρ c) (Proc.devRef .tc main_v30) = _
  dsimp only [hostOps1]
  after_results_simp

theorem e3_wl (c : Dev nD) : V3 m ρ c main_v45 = wtOf (W2 m ρ c (Proc.devRef .tc main_arg5)) := by
  show StableHlo.after hostOps1 (W2 m ρ c) (Proc.devRef .tc main_v45) = _
  dsimp only [hostOps1]
  after_results_simp
  rfl

theorem e3_wr (c : Dev nD) : V3 m ρ c main_v47 = wtOf (W2 m ρ c (Proc.devRef .tc main_arg7)) := by
  show StableHlo.after hostOps1 (W2 m ρ c) (Proc.devRef .tc main_v47) = _
  dsimp only [hostOps1]
  after_results_simp
  rfl

theorem e3_b (c : Dev nD) : V3 m ρ c main_v48 = rowOf (W2 m ρ c (Proc.devRef .tc main_arg6)) := by
  show StableHlo.after hostOps1 (W2 m ρ c) (Proc.devRef .tc main_v48) = _
  dsimp only [hostOps1]
  after_results_simp
  rfl

theorem e3_keep_main_v1 (c : Dev nD) : W3 m ρ c (Proc.devRef .tc main_v1) = W2 m ρ c (Proc.devRef .tc main_v1) := by
  show StableHlo.after hostOps1 (W2 m ρ c) (Proc.devRef .tc main_v1) = _
  dsimp only [hostOps1]
  after_results_simp

theorem e3_keep_main_v3 (c : Dev nD) : W3 m ρ c (Proc.devRef .tc main_v3) = W2 m ρ c (Proc.devRef .tc main_v3) := by
  show StableHlo.after hostOps1 (W2 m ρ c) (Proc.devRef .tc main_v3) = _
  dsimp only [hostOps1]
  after_results_simp

theorem e3_keep_main_v11 (c : Dev nD) : W3 m ρ c (Proc.devRef .tc main_v11) = W2 m ρ c (Proc.devRef .tc main_v11) := by
  show StableHlo.after hostOps1 (W2 m ρ c) (Proc.devRef .tc main_v11) = _
  dsimp only [hostOps1]
  after_results_simp

theorem e3_keep_main_arg8 (c : Dev nD) : W3 m ρ c (Proc.devRef .tc main_arg8) = W2 m ρ c (Proc.devRef .tc main_arg8) := by
  show StableHlo.after hostOps1 (W2 m ρ c) (Proc.devRef .tc main_arg8) = _
  dsimp only [hostOps1]
  after_results_simp

theorem e3_keep_main_arg9 (c : Dev nD) : W3 m ρ c (Proc.devRef .tc main_arg9) = W2 m ρ c (Proc.devRef .tc main_arg9) := by
  show StableHlo.after hostOps1 (W2 m ρ c) (Proc.devRef .tc main_arg9) = _
  dsimp only [hostOps1]
  after_results_simp

theorem e3_keep_main_arg10 (c : Dev nD) : W3 m ρ c (Proc.devRef .tc main_arg10) = W2 m ρ c (Proc.devRef .tc main_arg10) := by
  show StableHlo.after hostOps1 (W2 m ρ c) (Proc.devRef .tc main_arg10) = _
  dsimp only [hostOps1]
  after_results_simp

/-! ## Across the second launch -/

theorem x4_main_v1 (c : Dev nD) : W4 m ρ c (Proc.devRef .tc main_v1) = W3 m ρ c (Proc.devRef .tc main_v1) :=
  W4_of_ne m ρ c main_v1 (by decide)

theorem x4_main_v3 (c : Dev nD) : W4 m ρ c (Proc.devRef .tc main_v3) = W3 m ρ c (Proc.devRef .tc main_v3) :=
  W4_of_ne m ρ c main_v3 (by decide)

theorem x4_main_v11 (c : Dev nD) : W4 m ρ c (Proc.devRef .tc main_v11) = W3 m ρ c (Proc.devRef .tc main_v11) :=
  W4_of_ne m ρ c main_v11 (by decide)

theorem x4_main_arg8 (c : Dev nD) : W4 m ρ c (Proc.devRef .tc main_arg8) = W3 m ρ c (Proc.devRef .tc main_arg8) :=
  W4_of_ne m ρ c main_arg8 (by decide)

theorem x4_main_arg9 (c : Dev nD) : W4 m ρ c (Proc.devRef .tc main_arg9) = W3 m ρ c (Proc.devRef .tc main_arg9) :=
  W4_of_ne m ρ c main_arg9 (by decide)

theorem x4_main_arg10 (c : Dev nD) : W4 m ρ c (Proc.devRef .tc main_arg10) = W3 m ρ c (Proc.devRef .tc main_arg10) :=
  W4_of_ne m ρ c main_arg10 (by decide)

/-! ## Before the third launch -/

theorem e5_a (c : Dev nD) : V5 m ρ c main_v62 = meanOf (W4 m ρ c (Proc.devRef .tc main_v1)) (W4 m ρ c (Proc.devRef .tc main_v3))
    (W4 m ρ c (Proc.devRef .tc main_v11)) (W4 m ρ c (Proc.devRef .tc main_v49)) := by
  show StableHlo.after hostOps2 (W4 m ρ c) (Proc.devRef .tc main_v62) = _
  dsimp only [hostOps2]
  after_results_simp
  rfl

theorem e5_h (c : Dev nD) : V5 m ρ c main_v49 = W4 m ρ c (Proc.devRef .tc main_v49) := by
  show StableHlo.after hostOps2 (W4 m ρ c) (Proc.devRef .tc main_v49) = _
  dsimp only [hostOps2]
  after_results_simp

theorem e5_wl (c : Dev nD) : V5 m ρ c main_v64 = wtOf (W4 m ρ c (Proc.devRef .tc main_arg8)) := by
  show StableHlo.after hostOps2 (W4 m ρ c) (Proc.devRef .tc main_v64) = _
  dsimp only [hostOps2]
  after_results_simp
  rfl

theorem e5_wr (c : Dev nD) : V5 m ρ c main_v66 = wtOf (W4 m ρ c (Proc.devRef .tc main_arg10)) := by
  show StableHlo.after hostOps2 (W4 m ρ c) (Proc.devRef .tc main_v66) = _
  dsimp only [hostOps2]
  after_results_simp
  rfl

theorem e5_b (c : Dev nD) : V5 m ρ c main_v67 = rowOf (W4 m ρ c (Proc.devRef .tc main_arg9)) := by
  show StableHlo.after hostOps2 (W4 m ρ c) (Proc.devRef .tc main_v67) = _
  dsimp only [hostOps2]
  after_results_simp
  rfl

end Cert.KernelIdeal.Hand

end
-- ==== Proof.KernelBody.lean ====
/-
  What each launch's body stores, as a function of the blocks it loads.

  All three bodies load a [5000,128] block of averaged neighbour rows, the matching block of the nodes' own rows, the two
  [128,128] weight matrices and the [1,128] bias row, and store
      (block_a · wl + block_h · wr) + bias            (the last launch)
      max((block_a · wl + block_h · wr) + bias, 0)    (the first two),
  the products taken into zero accumulators after rounding the row blocks to bf16 — the identity on extended reals.
  That is the layer function `lin` of the blocks, and its positive part `relu`.
-/
import proofs.«146861_j2233382994520_1_alg».proof.Proof.Gen.KernelIdeal.Skeleton
import proofs.«146861_j2233382994520_1_alg».proof.Proof.LibSageLin

noncomputable section

namespace Cert.KernelIdeal.Hand

open Cert.KernelIdeal Cert.KernelIdeal.Gen Idealize.ShloMosaic Idealize.ShloMosaic.ValueIdx Cert.SageLin

/-- The body's stored value in the first launch: the positive part of the layer of the loaded blocks. -/
theorem pay0_eq (x0 x1 : FVec Ideal S5000x128 .f32) (x2 x3 : FVec Ideal S128x128 .bf16) (x4 : FVec Ideal S1x128 .f32) :
    k0_pay1 (F := Ideal) x0 x1 x2 x3 x4 = relu (lin x0 x1 x2 x3 x4) := by
  unfold k0_pay1
  dsimp only
  simp only [shapeCast_self]
  exact (relu_tile _).trans (congrArg relu
    (lin_tile dot_S5000x128_S128x128_S5000x128_1_0_0_1_n_n.wf x0 x1 x2 x3 x4 bitsLt_bf16_f32 broadcasts_S1x128_S5000x128))

/-- The same in the second launch. -/
theorem pay1_eq (x0 x1 : FVec Ideal S5000x128 .f32) (x2 x3 : FVec Ideal S128x128 .bf16) (x4 : FVec Ideal S1x128 .f32) :
    k1_pay1 (F := Ideal) x0 x1 x2 x3 x4 = relu (lin x0 x1 x2 x3 x4) := by
  unfold k1_pay1
  dsimp only
  simp only [shapeCast_self]
  exact (relu_tile _).trans (congrArg relu
    (lin_tile dot_S5000x128_S128x128_S5000x128_1_0_0_1_n_n.wf x0 x1 x2 x3 x4 bitsLt_bf16_f32 broadcasts_S1x128_S5000x128))

/-- The last launch stores the layer itself. -/
theorem pay2_eq (x0 x1 : FVec Ideal S5000x128 .f32) (x2 x3 : FVec Ideal S128x128 .bf16) (x4 : FVec Ideal S1x128 .f32) :
    k2_pay1 (F := Ideal) x0 x1 x2 x3 x4 = lin x0 x1 x2 x3 x4 := by
  unfold k2_pay1
  dsimp only
  simp only [shapeCast_self]
  exact lin_tile dot_S5000x128_S128x128_S5000x128_1_0_0_1_n_n.wf x0 x1 x2 x3 x4 bitsLt_bf16_f32 broadcasts_S1x128_S5000x128

end Cert.KernelIdeal.Hand

end
-- ==== Proof.KernelBlocks0.lean ====
/-
  The first launch: what its output array holds when it returns, as one function of the arrays it was entered with.

  The grid has 20 points; point t loads rows 5000·t … 5000·t + 4999 of the averaged-neighbour array and of the
  own-rows array, the whole of both weight matrices and of the bias row, and writes back rows 5000·t … 5000·t + 4999
  of the output. A row of the layer depends on the same row of its two row operands only, so what point t writes is
  block t of the layer's positive part of the WHOLE arrays; the 20 blocks tile the output's 100000 rows, so the output ends
  holding that function everywhere. Stated for any contents `V` of the buffers at the launch's entry.
-/
import proofs.«146861_j2233382994520_1_alg».proof.Proof.Gen.KernelIdeal.Frame
import proofs.«146861_j2233382994520_1_alg».proof.Proof.KernelBody
import Idealize.ShloMosaic.Lib.Pipeline.Value

set_option maxRecDepth 16384

noncomputable section

namespace Cert.KernelIdeal.Hand.R0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.SageLin

variable (V : (c : Dev nD) → (b : Ref sig .tc) → Buf (Elt Ideal) ((c : Thread nD τ).loc b))

theorem hz : (![0, 0] : Fin 2 → Nat) = fun _ => 0 := funext fun a => by fin_cases a <;> rfl

/-- The launch's output as a function of the arrays it reads. -/
abbrev G (A H : S100000x128.Idx → EReal) (Wl Wr : S128x128.Idx → EReal) (B : S1x128.Idx → EReal) : S100000x128.Idx → EReal :=
  relu (M := 100000) (N := 128) (lin (M := 100000) (K := 128) (N := 128) A H Wl Wr B)

/-- Row p of a tile that holds rows 5000·t … of the row operands, against the whole weights and bias, is row
    5000·t + p of the whole arrays' function. -/
theorem tile_row (A H : S100000x128.Idx → EReal) (Wl Wr : S128x128.Idx → EReal) (B : S1x128.Idx → EReal)
    (x0 x1 : S5000x128.Idx → EReal) (x2 x3 : S128x128.Idx → EReal) (x4 : S1x128.Idx → EReal)
    (p : Fin 5000) (r : Fin 100000) (q : Fin 128)
    (h0 : ∀ k : Fin 128, x0 (ix2 p k) = A (ix2 r k)) (h1 : ∀ k : Fin 128, x1 (ix2 p k) = H (ix2 r k))
    (h2 : x2 = Wl) (h3 : x3 = Wr) (h4 : x4 = B) :
    (relu (M := 5000) (N := 128) (lin (M := 5000) (K := 128) (N := 128) x0 x1 x2 x3 x4)) (ix2 p q) = G A H Wl Wr B (ix2 r q) := by
  show max (lin (M := 5000) (K := 128) (N := 128) x0 x1 x2 x3 x4 (ix2 p q)) zero = max (lin (M := 100000) (K := 128) (N := 128) A H Wl Wr B (ix2 r q)) zero
  rw [lin_congr A H x0 x1 Wl Wr x2 x3 B x4 p r q h0 h1 h2 h3 h4]

/-- The printed index maps over the grid: the two row windows and the output move with the point, the weights and
    the bias stay. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The averaged-neighbour window's block at point t, row p: row 5000·t + p of its array. -/
theorem blk_a (c : Dev nD) (t : Fin cfg0.N) (p : Fin 5000) (k : Fin 128) (r : Fin 100000) (hr : r.val = t.val * 5000 + p.val) :
    (iblk0 V c 0 t : S5000x128.Idx → EReal) (ix2 p k) = (V c main_v24 : S100000x128.Idx → EReal) (ix2 r k) := by
  obtain ⟨e0, e1, -⟩ := idx t
  unfold iblk0
  rw [View.read_apply]
  show (V c main_v24 : S100000x128.Idx → EReal) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The own-rows window's block at point t, row p: row 5000·t + p of its array. -/
theorem blk_h (c : Dev nD) (t : Fin cfg0.N) (p : Fin 5000) (k : Fin 128) (r : Fin 100000) (hr : r.val = t.val * 5000 + p.val) :
    (iblk0 V c 1 t : S5000x128.Idx → EReal) (ix2 p k) = (V c main_arg0 : S100000x128.Idx → EReal) (ix2 r k) := by
  obtain ⟨-, -, e0, e1, -⟩ := idx t
  unfold iblk0
  rw [View.read_apply]
  show (V c main_arg0 : S100000x128.Idx → EReal) _ = _
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The first weight window's one block is its whole array. -/
theorem blk_wl (c : Dev nD) (t : Fin cfg0.N) :
    (iblk0 V c 2 t : S128x128.Idx → EReal) = (V c main_v26 : S128x128.Idx → EReal) := by
  obtain ⟨-, -, -, -, e0, e1, -⟩ := idx t
  funext y
  unfold iblk0
  rw [View.read_apply]
  show (V c main_v26 : S128x128.Idx → EReal) _ = _
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The second weight window's one block is its whole array. -/
theorem blk_wr (c : Dev nD) (t : Fin cfg0.N) :
    (iblk0 V c 3 t : S128x128.Idx → EReal) = (V c main_v28 : S128x128.Idx → EReal) := by
  obtain ⟨-, -, -, -, -, -, e0, e1, -⟩ := idx t
  funext y
  unfold iblk0
  rw [View.read_apply]
  show (V c main_v28 : S128x128.Idx → EReal) _ = _
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias window's one block is its whole array. -/
theorem blk_b (c : Dev nD) (t : Fin cfg0.N) :
    (iblk0 V c 4 t : S1x128.Idx → EReal) = (V c main_v29 : S1x128.Idx → EReal) := by
  obtain ⟨-, -, -, -, -, -, -, -, e0, e1, -⟩ := idx t
  funext y
  unfold iblk0
  rw [View.read_apply]
  show (V c main_v29 : S1x128.Idx → EReal) _ = _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The output array's function, of the entry contents. -/
abbrev out (c : Dev nD) : S100000x128.Idx → EReal :=
  G (V c main_v24) (V c main_arg0) (V c main_v26) (V c main_v28) (V c main_v29)

/-- What point t writes back is block t of that function. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0_eq]
  have hN : cfg0.N = 20 := N_0
  have ht : t.val < 20 := hN ▸ t.isLt
  obtain ⟨-, -, -, -, -, -, -, -, -, -, e0, e1⟩ := idx t
  funext j
  revert j
  intro (j : S5000x128.Idx)
  obtain ⟨p, q, rfl⟩ : ∃ (p : Fin 5000) (q : Fin 128), j = ix2 p q := ⟨j 0, j 1, eq_ix2 j⟩
  have hp : p.val < 5000 := p.isLt
  rw [View.read_apply]
  have he : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 128 + 1 * q.val = q.val; rw [e1]; omega
  rw [he]
  exact tile_row _ _ _ _ _ _ _ _ _ _ p ⟨t.val * 5000 + p.val, by omega⟩ q
    (fun k => blk_a V c t p k _ rfl) (fun k => blk_h V c t p k _ rfl) (blk_wl V c t) (blk_wr V c t) (blk_b V c t)

/-- Every row of the output is in some point's block: row i is in block i / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_5 _, ?_⟩
  obtain ⟨-, -, -, -, -, -, -, -, -, -, e0, e1⟩ := idx ⟨(i 0).val / 5000, hlt⟩
  show i ∈ ((View.whole main_v30).slice (win0_5.rect ⟨(i 0).val / 5000, hlt⟩)).set
  rw [View.set_slice_whole, Rect.mem_set_unit]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]
    omega

/-- So the output array ends holding that function of the entry contents. -/
theorem final (c : Dev nD) : (dat0 V c).arrAt 5 cfg0.N = out V c :=
  (dat0 V c).arrAt_eq_of_cover 5 (out V c) (fun t _ => flushed_eq V c t) cover

end Cert.KernelIdeal.Hand.R0

end
-- ==== Proof.KernelBlocks1.lean ====
/-
  The second launch: what its output array holds when it returns, as one function of the arrays it was entered with.

  The grid has 20 points; point t loads rows 5000·t … 5000·t + 4999 of the averaged-neighbour array and of the
  own-rows array, the whole of both weight matrices and of the bias row, and writes back rows 5000·t … 5000·t + 4999
  of the output. A row of the layer depends on the same row of its two row operands only, so what point t writes is
  block t of the layer's positive part of the WHOLE arrays; the 20 blocks tile the output's 100000 rows, so the output ends
  holding that function everywhere. Stated for any contents `V` of the buffers at the launch's entry.
-/
import proofs.«146861_j2233382994520_1_alg».proof.Proof.Gen.KernelIdeal.Frame
import proofs.«146861_j2233382994520_1_alg».proof.Proof.KernelBody
import Idealize.ShloMosaic.Lib.Pipeline.Value

set_option maxRecDepth 16384

noncomputable section

namespace Cert.KernelIdeal.Hand.R1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.SageLin

variable (V : (c : Dev nD) → (b : Ref sig .tc) → Buf (Elt Ideal) ((c : Thread nD τ).loc b))

theorem hz : (![0, 0] : Fin 2 → Nat) = fun _ => 0 := funext fun a => by fin_cases a <;> rfl

/-- The launch's output as a function of the arrays it reads. -/
abbrev G (A H : S100000x128.Idx → EReal) (Wl Wr : S128x128.Idx → EReal) (B : S1x128.Idx → EReal) : S100000x128.Idx → EReal :=
  relu (M := 100000) (N := 128) (lin (M := 100000) (K := 128) (N := 128) A H Wl Wr B)

/-- Row p of a tile that holds rows 5000·t … of the row operands, against the whole weights and bias, is row
    5000·t + p of the whole arrays' function. -/
theorem tile_row (A H : S100000x128.Idx → EReal) (Wl Wr : S128x128.Idx → EReal) (B : S1x128.Idx → EReal)
    (x0 x1 : S5000x128.Idx → EReal) (x2 x3 : S128x128.Idx → EReal) (x4 : S1x128.Idx → EReal)
    (p : Fin 5000) (r : Fin 100000) (q : Fin 128)
    (h0 : ∀ k : Fin 128, x0 (ix2 p k) = A (ix2 r k)) (h1 : ∀ k : Fin 128, x1 (ix2 p k) = H (ix2 r k))
    (h2 : x2 = Wl) (h3 : x3 = Wr) (h4 : x4 = B) :
    (relu (M := 5000) (N := 128) (lin (M := 5000) (K := 128) (N := 128) x0 x1 x2 x3 x4)) (ix2 p q) = G A H Wl Wr B (ix2 r q) := by
  show max (lin (M := 5000) (K := 128) (N := 128) x0 x1 x2 x3 x4 (ix2 p q)) zero = max (lin (M := 100000) (K := 128) (N := 128) A H Wl Wr B (ix2 r q)) zero
  rw [lin_congr A H x0 x1 Wl Wr x2 x3 B x4 p r q h0 h1 h2 h3 h4]

/-- The printed index maps over the grid: the two row windows and the output move with the point, the weights and
    the bias stay. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The averaged-neighbour window's block at point t, row p: row 5000·t + p of its array. -/
theorem blk_a (c : Dev nD) (t : Fin cfg1.N) (p : Fin 5000) (k : Fin 128) (r : Fin 100000) (hr : r.val = t.val * 5000 + p.val) :
    (iblk1 V c 0 t : S5000x128.Idx → EReal) (ix2 p k) = (V c main_v43 : S100000x128.Idx → EReal) (ix2 r k) := by
  obtain ⟨e0, e1, -⟩ := idx t
  unfold iblk1
  rw [View.read_apply]
  show (V c main_v43 : S100000x128.Idx → EReal) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The own-rows window's block at point t, row p: row 5000·t + p of its array. -/
theorem blk_h (c : Dev nD) (t : Fin cfg1.N) (p : Fin 5000) (k : Fin 128) (r : Fin 100000) (hr : r.val = t.val * 5000 + p.val) :
    (iblk1 V c 1 t : S5000x128.Idx → EReal) (ix2 p k) = (V c main_v30 : S100000x128.Idx → EReal) (ix2 r k) := by
  obtain ⟨-, -, e0, e1, -⟩ := idx t
  unfold iblk1
  rw [View.read_apply]
  show (V c main_v30 : S100000x128.Idx → EReal) _ = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The first weight window's one block is its whole array. -/
theorem blk_wl (c : Dev nD) (t : Fin cfg1.N) :
    (iblk1 V c 2 t : S128x128.Idx → EReal) = (V c main_v45 : S128x128.Idx → EReal) := by
  obtain ⟨-, -, -, -, e0, e1, -⟩ := idx t
  funext y
  unfold iblk1
  rw [View.read_apply]
  show (V c main_v45 : S128x128.Idx → EReal) _ = _
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The second weight window's one block is its whole array. -/
theorem blk_wr (c : Dev nD) (t : Fin cfg1.N) :
    (iblk1 V c 3 t : S128x128.Idx → EReal) = (V c main_v47 : S128x128.Idx → EReal) := by
  obtain ⟨-, -, -, -, -, -, e0, e1, -⟩ := idx t
  funext y
  unfold iblk1
  rw [View.read_apply]
  show (V c main_v47 : S128x128.Idx → EReal) _ = _
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias window's one block is its whole array. -/
theorem blk_b (c : Dev nD) (t : Fin cfg1.N) :
    (iblk1 V c 4 t : S1x128.Idx → EReal) = (V c main_v48 : S1x128.Idx → EReal) := by
  obtain ⟨-, -, -, -, -, -, -, -, e0, e1, -⟩ := idx t
  funext y
  unfold iblk1
  rw [View.read_apply]
  show (V c main_v48 : S1x128.Idx → EReal) _ = _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The output array's function, of the entry contents. -/
abbrev out (c : Dev nD) : S100000x128.Idx → EReal :=
  G (V c main_v43) (V c main_v30) (V c main_v45) (V c main_v47) (V c main_v48)

/-- What point t writes back is block t of that function. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay1_eq]
  have hN : cfg1.N = 20 := N_1
  have ht : t.val < 20 := hN ▸ t.isLt
  obtain ⟨-, -, -, -, -, -, -, -, -, -, e0, e1⟩ := idx t
  funext j
  revert j
  intro (j : S5000x128.Idx)
  obtain ⟨p, q, rfl⟩ : ∃ (p : Fin 5000) (q : Fin 128), j = ix2 p q := ⟨j 0, j 1, eq_ix2 j⟩
  have hp : p.val < 5000 := p.isLt
  rw [View.read_apply]
  have he : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; rw [e0]; omega
    | ⟨1, _⟩ => show win1_5.index t (1 : Fin 2) * 128 + 1 * q.val = q.val; rw [e1]; omega
  rw [he]
  exact tile_row _ _ _ _ _ _ _ _ _ _ p ⟨t.val * 5000 + p.val, by omega⟩ q
    (fun k => blk_a V c t p k _ rfl) (fun k => blk_h V c t p k _ rfl) (blk_wl V c t) (blk_wr V c t) (blk_b V c t)

/-- Every row of the output is in some point's block: row i is in block i / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  refine ⟨⟨(i 0).val / 5000, hlt⟩, flush1_5 _, ?_⟩
  obtain ⟨-, -, -, -, -, -, -, -, -, -, e0, e1⟩ := idx ⟨(i 0).val / 5000, hlt⟩
  show i ∈ ((View.whole main_v49).slice (win1_5.rect ⟨(i 0).val / 5000, hlt⟩)).set
  rw [View.set_slice_whole, Rect.mem_set_unit]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e1]
    omega

/-- So the output array ends holding that function of the entry contents. -/
theorem final (c : Dev nD) : (dat1 V c).arrAt 5 cfg1.N = out V c :=
  (dat1 V c).arrAt_eq_of_cover 5 (out V c) (fun t _ => flushed_eq V c t) cover

end Cert.KernelIdeal.Hand.R1

end
-- ==== Proof.KernelBlocks2.lean ====
/-
  The third launch: what its output array holds when it returns, as one function of the arrays it was entered with.

  The grid has 20 points; point t loads rows 5000·t … 5000·t + 4999 of the averaged-neighbour array and of the
  own-rows array, the whole of both weight matrices and of the bias row, and writes back rows 5000·t … 5000·t + 4999
  of the output. A row of the layer depends on the same row of its two row operands only, so what point t writes is
  block t of the layer of the WHOLE arrays; the 20 blocks tile the output's 100000 rows, so the output ends
  holding that function everywhere. Stated for any contents `V` of the buffers at the launch's entry.
-/
import proofs.«146861_j2233382994520_1_alg».proof.Proof.Gen.KernelIdeal.Frame
import proofs.«146861_j2233382994520_1_alg».proof.Proof.KernelBody
import Idealize.ShloMosaic.Lib.Pipeline.Value

set_option maxRecDepth 16384

noncomputable section

namespace Cert.KernelIdeal.Hand.R2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.SageLin

variable (V : (c : Dev nD) → (b : Ref sig .tc) → Buf (Elt Ideal) ((c : Thread nD τ).loc b))

theorem hz : (![0, 0] : Fin 2 → Nat) = fun _ => 0 := funext fun a => by fin_cases a <;> rfl

/-- The launch's output as a function of the arrays it reads. -/
abbrev G (A H : S100000x128.Idx → EReal) (Wl Wr : S128x128.Idx → EReal) (B : S1x128.Idx → EReal) : S100000x128.Idx → EReal :=
  lin (M := 100000) (K := 128) (N := 128) A H Wl Wr B

/-- Row p of a tile that holds rows 5000·t … of the row operands, against the whole weights and bias, is row
    5000·t + p of the whole arrays' function. -/
theorem tile_row (A H : S100000x128.Idx → EReal) (Wl Wr : S128x128.Idx → EReal) (B : S1x128.Idx → EReal)
    (x0 x1 : S5000x128.Idx → EReal) (x2 x3 : S128x128.Idx → EReal) (x4 : S1x128.Idx → EReal)
    (p : Fin 5000) (r : Fin 100000) (q : Fin 128)
    (h0 : ∀ k : Fin 128, x0 (ix2 p k) = A (ix2 r k)) (h1 : ∀ k : Fin 128, x1 (ix2 p k) = H (ix2 r k))
    (h2 : x2 = Wl) (h3 : x3 = Wr) (h4 : x4 = B) :
    (lin (M := 5000) (K := 128) (N := 128) x0 x1 x2 x3 x4) (ix2 p q) = G A H Wl Wr B (ix2 r q) := by
  exact lin_congr A H x0 x1 Wl Wr x2 x3 B x4 p r q h0 h1 h2 h3 h4

/-- The printed index maps over the grid: the two row windows and the output move with the point, the weights and
    the bias stay. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The averaged-neighbour window's block at point t, row p: row 5000·t + p of its array. -/
theorem blk_a (c : Dev nD) (t : Fin cfg2.N) (p : Fin 5000) (k : Fin 128) (r : Fin 100000) (hr : r.val = t.val * 5000 + p.val) :
    (iblk2 V c 0 t : S5000x128.Idx → EReal) (ix2 p k) = (V c main_v62 : S100000x128.Idx → EReal) (ix2 r k) := by
  obtain ⟨e0, e1, -⟩ := idx t
  unfold iblk2
  rw [View.read_apply]
  show (V c main_v62 : S100000x128.Idx → EReal) _ = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The own-rows window's block at point t, row p: row 5000·t + p of its array. -/
theorem blk_h (c : Dev nD) (t : Fin cfg2.N) (p : Fin 5000) (k : Fin 128) (r : Fin 100000) (hr : r.val = t.val * 5000 + p.val) :
    (iblk2 V c 1 t : S5000x128.Idx → EReal) (ix2 p k) = (V c main_v49 : S100000x128.Idx → EReal) (ix2 r k) := by
  obtain ⟨-, -, e0, e1, -⟩ := idx t
  unfold iblk2
  rw [View.read_apply]
  show (V c main_v49 : S100000x128.Idx → EReal) _ = _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- The first weight window's one block is its whole array. -/
theorem blk_wl (c : Dev nD) (t : Fin cfg2.N) :
    (iblk2 V c 2 t : S128x128.Idx → EReal) = (V c main_v64 : S128x128.Idx → EReal) := by
  obtain ⟨-, -, -, -, e0, e1, -⟩ := idx t
  funext y
  unfold iblk2
  rw [View.read_apply]
  show (V c main_v64 : S128x128.Idx → EReal) _ = _
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The second weight window's one block is its whole array. -/
theorem blk_wr (c : Dev nD) (t : Fin cfg2.N) :
    (iblk2 V c 3 t : S128x128.Idx → EReal) = (V c main_v66 : S128x128.Idx → EReal) := by
  obtain ⟨-, -, -, -, -, -, e0, e1, -⟩ := idx t
  funext y
  unfold iblk2
  rw [View.read_apply]
  show (V c main_v66 : S128x128.Idx → EReal) _ = _
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias window's one block is its whole array. -/
theorem blk_b (c : Dev nD) (t : Fin cfg2.N) :
    (iblk2 V c 4 t : S1x128.Idx → EReal) = (V c main_v67 : S1x128.Idx → EReal) := by
  obtain ⟨-, -, -, -, -, -, -, -, e0, e1, -⟩ := idx t
  funext y
  unfold iblk2
  rw [View.read_apply]
  show (V c main_v67 : S1x128.Idx → EReal) _ = _
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The output array's function, of the entry contents. -/
abbrev out (c : Dev nD) : S100000x128.Idx → EReal :=
  G (V c main_v62) (V c main_v49) (V c main_v64) (V c main_v66) (V c main_v67)

/-- What point t writes back is block t of that function. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  rw [pay2_eq]
  have hN : cfg2.N = 20 := N_2
  have ht : t.val < 20 := hN ▸ t.isLt
  obtain ⟨-, -, -, -, -, -, -, -, -, -, e0, e1⟩ := idx t
  funext j
  revert j
  intro (j : S5000x128.Idx)
  obtain ⟨p, q, rfl⟩ : ∃ (p : Fin 5000) (q : Fin 128), j = ix2 p q := ⟨j 0, j 1, eq_ix2 j⟩
  have hp : p.val < 5000 := p.isLt
  rw [View.read_apply]
  have he : ((cfg2.win 5).blk t).view.emb (ix2 p q) = ix2 (⟨t.val * 5000 + p.val, by omega⟩ : Fin 100000) q := by
    funext a; apply Fin.ext
    match a with
    | ⟨0, _⟩ => show win2_5.index t (0 : Fin 2) * 5000 + 1 * p.val = t.val * 5000 + p.val; rw [e0]; omega
    | ⟨1, _⟩ => show win2_5.index t (1 : Fin 2) * 128 + 1 * q.val = q.val; rw [e1]; omega
  rw [he]
  exact tile_row _ _ _ _ _ _ _ _ _ _ p ⟨t.val * 5000 + p.val, by omega⟩ q
    (fun k => blk_a V c t p k _ rfl) (fun k => blk_h V c t p k _ rfl) (blk_wl V c t) (blk_wr V c t) (blk_b V c t)

/-- Every row of the output is in some point's block: row i is in block i / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have hlt : (i 0).val / 5000 < cfg2.N := by rw [hN]; omega
  refine ⟨⟨(i 0).val / 5000, hlt⟩, flush2_5 _, ?_⟩
  obtain ⟨-, -, -, -, -, -, -, -, -, -, e0, e1⟩ := idx ⟨(i 0).val / 5000, hlt⟩
  show i ∈ ((View.whole main_v68).slice (win2_5.rect ⟨(i 0).val / 5000, hlt⟩)).set
  rw [View.set_slice_whole, Rect.mem_set_unit]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [e1]
    omega

/-- So the output array ends holding that function of the entry contents. -/
theorem final (c : Dev nD) : (dat2 V c).arrAt 5 cfg2.N = out V c :=
  (dat2 V c).arrAt_eq_of_cover 5 (out V c) (fun t _ => flushed_eq V c t) cover

end Cert.KernelIdeal.Hand.R2

end
-- ==== Proof.KernelValue.lean ====
/-
  The idealized kernel's result buffer as one function of the program's arguments.

  The last boundary's contents of the result buffer are the third launch's write-backs folded; by the block argument
  that is the layer function of the third launch's entry arrays; those are the host's functions of the second
  launch's output and of buffers no launch writes (the edge rows and one-over-degree computed before the first launch,
  the parameters); and so on back to the launch memory. Composed: the three layers of the arguments.
-/
import proofs.«146861_j2233382994520_1_alg».proof.Proof.KernelHost
import proofs.«146861_j2233382994520_1_alg».proof.Proof.KernelBlocks0
import proofs.«146861_j2233382994520_1_alg».proof.Proof.KernelBlocks1
import proofs.«146861_j2233382994520_1_alg».proof.Proof.KernelBlocks2

set_option maxRecDepth 16384

noncomputable section

namespace Cert.KernelIdeal.Hand

open Cert.KernelIdeal Cert.KernelIdeal.Gen
open Idealize.ShloMosaic Idealize.ShloMosaic.TcCoe Idealize.SL.Sem
open Cert.SageLin

/-- Equal operands give equal layers. -/
theorem lin5 {a a' h h' : S100000x128.Idx → EReal} {wl wl' wr wr' : S128x128.Idx → EReal} {b b' : S1x128.Idx → EReal}
    (ha : a = a') (hh : h = h') (hwl : wl = wl') (hwr : wr = wr') (hb : b = b') :
    lin (M := 100000) (K := 128) (N := 128) a h wl wr b = lin (M := 100000) (K := 128) (N := 128) a' h' wl' wr' b' := by
  subst ha hh hwl hwr hb; rfl

variable (m : (ℓ : Loc nD τ sig) → Buf (Elt Ideal) ℓ) (ρ : Dev nD → PrngReg)

/-- After the first launch its output buffer holds the first layer's positive part. -/
theorem out_first (c : Dev nD) : W2 m ρ c (Proc.devRef .tc main_v30)
    = relu (M := 100000) (N := 128) (kLayer (m ((c : Thread nD τ).loc main_arg1)) (m ((c : Thread nD τ).loc main_arg0)) (m ((c : Thread nD τ).loc main_arg2)) (m ((c : Thread nD τ).loc main_arg3)) (m ((c : Thread nD τ).loc main_arg4))) := by
  refine (W2_arr m ρ c 5).trans ((R0.final (V1 m ρ) c).trans ?_)
  exact congrArg (relu (M := 100000) (N := 128)) (lin5 (e1_a m ρ c) (e1_h m ρ c) (e1_wl m ρ c) (e1_wr m ρ c) (e1_b m ρ c))

/-- After the second launch its output buffer holds the second layer's positive part, of the first launch's output. -/
theorem out_second (c : Dev nD) : W4 m ρ c (Proc.devRef .tc main_v49)
    = relu (M := 100000) (N := 128) (kLayer (m ((c : Thread nD τ).loc main_arg1)) (W2 m ρ c (Proc.devRef .tc main_v30)) (m ((c : Thread nD τ).loc main_arg5)) (m ((c : Thread nD τ).loc main_arg6)) (m ((c : Thread nD τ).loc main_arg7))) := by
  have ha : V3 m ρ c main_v43 = meanOf (srcOf (m ((c : Thread nD τ).loc main_arg1))) (dstOf (m ((c : Thread nD τ).loc main_arg1))) (invOf (dstOf (m ((c : Thread nD τ).loc main_arg1)))) (W2 m ρ c (Proc.devRef .tc main_v30)) := by
    rw [e3_a m ρ c, x2_main_v1 m ρ c, x2_main_v3 m ρ c, x2_main_v11 m ρ c, e1_src m ρ c, e1_dst m ρ c, e1_inv m ρ c]
  have hwl : V3 m ρ c main_v45 = wtOf (m ((c : Thread nD τ).loc main_arg5)) := by rw [e3_wl m ρ c, x2_main_arg5 m ρ c, e1_keep_main_arg5 m ρ c]
  have hwr : V3 m ρ c main_v47 = wtOf (m ((c : Thread nD τ).loc main_arg7)) := by rw [e3_wr m ρ c, x2_main_arg7 m ρ c, e1_keep_main_arg7 m ρ c]
  have hb : V3 m ρ c main_v48 = rowOf (m ((c : Thread nD τ).loc main_arg6)) := by rw [e3_b m ρ c, x2_main_arg6 m ρ c, e1_keep_main_arg6 m ρ c]
  refine (W4_arr m ρ c 5).trans ((R1.final (V3 m ρ) c).trans ?_)
  exact congrArg (relu (M := 100000) (N := 128)) (lin5 ha (e3_h m ρ c) hwl hwr hb)

/-- After the third launch the result buffer holds the third layer, of the second launch's output. -/
theorem out_third (c : Dev nD) : W6 m ρ c (Proc.devRef .tc main_v68)
    = kLayer (m ((c : Thread nD τ).loc main_arg1)) (W4 m ρ c (Proc.devRef .tc main_v49)) (m ((c : Thread nD τ).loc main_arg8)) (m ((c : Thread nD τ).loc main_arg9)) (m ((c : Thread nD τ).loc main_arg10)) := by
  have ha : V5 m ρ c main_v62 = meanOf (srcOf (m ((c : Thread nD τ).loc main_arg1))) (dstOf (m ((c : Thread nD τ).loc main_arg1))) (invOf (dstOf (m ((c : Thread nD τ).loc main_arg1)))) (W4 m ρ c (Proc.devRef .tc main_v49)) := by
    rw [e5_a m ρ c, x4_main_v1 m ρ c, x4_main_v3 m ρ c, x4_main_v11 m ρ c, e3_keep_main_v1 m ρ c, e3_keep_main_v3 m ρ c, e3_keep_main_v11 m ρ c,
      x2_main_v1 m ρ c, x2_main_v3 m ρ c, x2_main_v11 m ρ c, e1_src m ρ c, e1_dst m ρ c, e1_inv m ρ c]
  have hwl : V5 m ρ c main_v64 = wtOf (m ((c : Thread nD τ).loc main_arg8)) := by
    rw [e5_wl m ρ c, x4_main_arg8 m ρ c, e3_keep_main_arg8 m ρ c, x2_main_arg8 m ρ c, e1_keep_main_arg8 m ρ c]
  have hwr : V5 m ρ c main_v66 = wtOf (m ((c : Thread nD τ).loc main_arg10)) := by
    rw [e5_wr m ρ c, x4_main_arg10 m ρ c, e3_keep_main_arg10 m ρ c, x2_main_arg10 m ρ c, e1_keep_main_arg10 m ρ c]
  have hb : V5 m ρ c main_v67 = rowOf (m ((c : Thread nD τ).loc main_arg9)) := by
    rw [e5_b m ρ c, x4_main_arg9 m ρ c, e3_keep_main_arg9 m ρ c, x2_main_arg9 m ρ c, e1_keep_main_arg9 m ρ c]
  refine (W6_arr m ρ c 5).trans ((R2.final (V5 m ρ) c).trans ?_)
  exact lin5 ha (e5_h m ρ c) hwl hwr hb

/-- The result buffer's final contents: the three layers of the arguments. -/
theorem result_eq (c : Dev nD) : W6 m ρ c (Proc.devRef .tc main_v68)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [out_third m ρ c, out_second m ρ c, out_first m ρ c]
  rfl

end Cert.KernelIdeal.Hand

end
-- ==== Proof.RefValue.lean ====
/-
  The reference's result as the same function of the arguments.

  The reference computes each layer on the host: the rows gathered at the (wrapped) sources and summed at the
  destinations, divided by the in-degree clamped below by one; that array and the layer's input through their
  transposed weights by two `dot_general`s; the bias broadcast twice; summed as (A + bias) + B; the positive part after
  the first two layers. Stage by stage that is the layer function `kLayer` of the previous stage: the quotient is the
  product with the reciprocal (`mean_eq`), and (A + bias) + B = (A + B) + bias on the extended reals.
-/
import proofs.«146861_j2233382994520_1_alg».proof.Proof.Gen.ReferenceIdeal.Read
import proofs.«146861_j2233382994520_1_alg».proof.Proof.HostFns

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.SageLin
open Cert.KernelIdeal.Hand (srcOf dstOf invOf cntOf clampOf aggOf meanOf wtOf rowOf kLayer kernelOut mean_eq)

/-- One layer in the reference's spelling, of a summed-rows array `A`, a divisor array `D` and an input `h`: when `A` is the
    rows of `h` summed along the edges and `D` the clamped in-degree spread over the columns, it is `kLayer` of `h`. -/
theorem layer_gen (x1 : IVec S2x1600000 32) (A D h : FVec Ideal S100000x128 .f32)
    (x2 : FVec Ideal S128x128 .f32) (x3 : FVec Ideal S128 .f32) (x4 : FVec Ideal S128x128 .f32)
    (hA : A = aggOf (srcOf x1) (dstOf x1) h) (hD : D = clampOf (dstOf x1)) :
    addf (F := Ideal) (addf (F := Ideal)
        (Host.dotGeneral (F := Ideal) dot_S100000x128_S128x128_S100000x128_1_0_0_1_n_n none (Host.divf (F := Ideal) A D)
          (transpose S128x128 [1, 0] x2 transposes_S128x128_S128x128_1_0))
        (broadcastInDim S100000x128 ![0, 1] bcast_S1x128_S100000x128_0_1 (broadcastInDim S1x128 ![1] bcast_S128_S1x128_1 x3)))
      (Host.dotGeneral (F := Ideal) dot_S100000x128_S128x128_S100000x128_1_0_0_1_n_n none h
        (transpose S128x128 [1, 0] x4 transposes_S128x128_S128x128_1_0))
      = kLayer x1 h x2 x3 x4 := by
  subst hA hD
  refine (lin_host dot_S100000x128_S128x128_S100000x128_1_0_0_1_n_n.wf _ _ _ _ _ bcast_S128_S1x128_1 bcast_S1x128_S100000x128_0_1
    Cert.KernelIdeal.Gen.shapeCasts_S128_S1x128).trans ?_
  unfold kLayer
  rw [mean_eq]
  rfl

/-- The first layer's stage. -/
theorem layer0 (x0 : FVec Ideal S100000x128 .f32) (x1 : IVec S2x1600000 32) (x2 : FVec Ideal S128x128 .f32) (x3 : FVec Ideal S128 .f32) (x4 : FVec Ideal S128x128 .f32) :
    val_main_v31 (F := Ideal) x0 x1 x2 x3 x4 = relu (M := 100000) (N := 128) (kLayer x1 x0 x2 x3 x4) := by
  unfold val_main_v31 val_main_call0_v0 val_main_call0_cst val_main_v30 val_main_v27 val_main_v29 val_main_v24 val_main_v26 val_main_v25
    val_main_v28 val_main_v23 val_main_v22
  refine (relu_host _ bcast_S_S100000x128).trans (congrArg (relu (M := 100000) (N := 128)) ?_)
  exact layer_gen x1 (val_main_v13 (F := Ideal) x0 x1) (val_main_v21 (F := Ideal) x1) x0 x2 x3 x4 rfl rfl

/-- The second layer's stage, of the first's. -/
theorem layer1 (x0 : FVec Ideal S100000x128 .f32) (x1 : IVec S2x1600000 32) (x2 : FVec Ideal S128x128 .f32) (x3 : FVec Ideal S128 .f32) (x4 : FVec Ideal S128x128 .f32) (x5 : FVec Ideal S128x128 .f32) (x6 : FVec Ideal S128 .f32) (x7 : FVec Ideal S128x128 .f32) :
    val_main_v59 (F := Ideal) x0 x1 x2 x3 x4 x5 x6 x7
      = relu (M := 100000) (N := 128) (kLayer x1 (val_main_v31 (F := Ideal) x0 x1 x2 x3 x4) x5 x6 x7) := by
  unfold val_main_v59 val_main_call1_v0 val_main_call1_cst val_main_v58 val_main_v55 val_main_v57 val_main_v52 val_main_v54 val_main_v53
    val_main_v56 val_main_v51 val_main_v50
  refine (relu_host _ bcast_S_S100000x128).trans (congrArg (relu (M := 100000) (N := 128)) ?_)
  exact layer_gen x1 (val_main_v41 (F := Ideal) x0 x1 x2 x3 x4) (val_main_v49 (F := Ideal) x1) (val_main_v31 (F := Ideal) x0 x1 x2 x3 x4) x5 x6 x7 rfl rfl

/-- The third layer's stage, of the second's. -/
theorem layer2 (x0 : FVec Ideal S100000x128 .f32) (x1 : IVec S2x1600000 32) (x2 : FVec Ideal S128x128 .f32) (x3 : FVec Ideal S128 .f32) (x4 : FVec Ideal S128x128 .f32) (x5 : FVec Ideal S128x128 .f32) (x6 : FVec Ideal S128 .f32) (x7 : FVec Ideal S128x128 .f32) (x8 : FVec Ideal S128x128 .f32) (x9 : FVec Ideal S128 .f32) (x10 : FVec Ideal S128x128 .f32) :
    val_main_v86 (F := Ideal) x0 x1 x2 x3 x4 x5 x6 x7 x8 x9 x10
      = kLayer x1 (val_main_v59 (F := Ideal) x0 x1 x2 x3 x4 x5 x6 x7) x8 x9 x10 := by
  unfold val_main_v86 val_main_v83 val_main_v85 val_main_v80 val_main_v82 val_main_v81 val_main_v84 val_main_v79 val_main_v78
  exact layer_gen x1 (val_main_v69 (F := Ideal) x0 x1 x2 x3 x4 x5 x6 x7) (val_main_v77 (F := Ideal) x1) (val_main_v59 (F := Ideal) x0 x1 x2 x3 x4 x5 x6 x7) x8 x9 x10 rfl rfl

/-- The reference's result: the three layers of the arguments. -/
theorem ref_value (x0 : FVec Ideal S100000x128 .f32) (x1 : IVec S2x1600000 32) (x2 : FVec Ideal S128x128 .f32) (x3 : FVec Ideal S128 .f32) (x4 : FVec Ideal S128x128 .f32) (x5 : FVec Ideal S128x128 .f32) (x6 : FVec Ideal S128 .f32) (x7 : FVec Ideal S128x128 .f32) (x8 : FVec Ideal S128x128 .f32) (x9 : FVec Ideal S128 .f32) (x10 : FVec Ideal S128x128 .f32) :
    val_main_v86 (F := Ideal) x0 x1 x2 x3 x4 x5 x6 x7 x8 x9 x10 = kernelOut x0 x1 x2 x3 x4 x5 x6 x7 x8 x9 x10 := by
  rw [layer2, layer1, layer0]
  rfl

end Cert.ReferenceIdeal.Hand

end
-- ==== Proof.lean ====
/-
  Three layers of a mean-aggregating graph convolution on 100000 nodes with 128 features and 1600000 edges: the kernel
  program against the plain reference, equal as extended reals.

  Both programs compute, per layer, from the node features h:
      a  = (rows of h at the edges' sources, summed at the edges' destinations) averaged by the in-degree clamped below by one,
      out = a · Wlᵀ + h · Wrᵀ + bias,     followed by the positive part after the first two layers.
  They differ in three ways, none of which changes the value on the extended reals:
    * the kernel multiplies the summed rows by 1 / max(deg, 1), the reference divides them by max(deg, 1): for a divisor
      d ≠ 0 the quotient x / d is x · d⁻¹ and 1 / d is d⁻¹, for every extended real x, and max(deg, 1) ≥ 1 is never 0;
    * the kernel adds the bias last, the reference before the second product: addition of extended reals is commutative
      and associative;
    * the kernel takes the two products tile by tile (5000 rows at a time, 20 tiles) after rounding the rows to bf16 — the
      identity on extended reals —, the reference as two whole matrix products: row r of a product depends on row r of the
      left operand only, and the tiles cover the rows.
  Neither step needs the inputs to be finite, so the precondition is not opened.

  The kernel program's run (three launches among host stretches) ends with its result buffer at the three layers of its
  arguments (`KernelRun`, `KernelValue`); the reference's run at the same function of its own arguments (`RefValue`); the
  arguments agree. The frames are the programs' runs with the results dropped; the idealization rewrote nothing.
-/
import proofs.«146861_j2233382994520_1_alg».proof.Defs
import proofs.«146861_j2233382994520_1_alg».proof.Proof.Gen.Kernel
import proofs.«146861_j2233382994520_1_alg».proof.Proof.Gen.Kernel.Skeleton
import proofs.«146861_j2233382994520_1_alg».proof.Proof.Gen.Kernel.Launch
import proofs.«146861_j2233382994520_1_alg».proof.Proof.Gen.Kernel.Points
import proofs.«146861_j2233382994520_1_alg».proof.Proof.Gen.Kernel.Frame
import proofs.«146861_j2233382994520_1_alg».proof.Proof.Gen.KernelIdeal
import proofs.«146861_j2233382994520_1_alg».proof.Proof.Gen.KernelIdeal.Skeleton
import proofs.«146861_j2233382994520_1_alg».proof.Proof.Gen.KernelIdeal.Launch
import proofs.«146861_j2233382994520_1_alg».proof.Proof.Gen.KernelIdeal.Points
import proofs.«146861_j2233382994520_1_alg».proof.Proof.Gen.KernelIdeal.Frame
import proofs.«146861_j2233382994520_1_alg».proof.Proof.Gen.ReferenceIdeal
import proofs.«146861_j2233382994520_1_alg».proof.Proof.Gen.ReferenceIdeal.Run
import proofs.«146861_j2233382994520_1_alg».proof.Proof.Gen.ReferenceIdeal.Read
import proofs.«146861_j2233382994520_1_alg».proof.Proof.Gen.Pre_finite_inputs
import proofs.«146861_j2233382994520_1_alg».proof.Proof.KernelRun
import proofs.«146861_j2233382994520_1_alg».proof.Proof.KernelValue
import proofs.«146861_j2233382994520_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the three layers of the (agreeing) arguments in their result buffers. -/
theorem algebraic : Cert.algebraic_KernelIdeal_ReferenceIdeal := by
  intro m ρ m' ρ' _ hagree
  refine ⟨fun c => Cert.KernelIdeal.Hand.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v86_eq, Cert.ReferenceIdeal.Hand.ref_value,
      e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
